-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x1024x768 : Shape := ⟨3, ![64, 1024, 768]⟩
abbrev S_ : Shape := ⟨0, ![]⟩

class Facts : Prop where
  bcast_S_S64x1024x768 : S_.BroadcastsInDim S64x1024x768 (![] : Fin 0 → Fin S64x1024x768.rank)
  reducesTo_S64x1024x768_S_d0_1_2 : S64x1024x768.ReducesTo [0, 1, 2] S_
  h_S_ : 0 < S_.numel

variable [Facts]

def fn {F : FTy → Type} [FloatOps F] (main_arg0 : FVec F S64x1024x768 .f32) : IVec S_ 1 :=
  let main_v0 : FVec F S64x1024x768 .f32 := Host.absf main_arg0
  let main_cst : FVec F S_ .f32 := constant S_ .f32 0x7F800000#32
  let main_v1 : FVec F S64x1024x768 .f32 := broadcastInDim S64x1024x768 ![] bcast_S_S64x1024x768 main_cst
  let main_v2 : IVec S64x1024x768 1 := cmpf .olt main_v0 main_v1
  let main_c : IVec S_ 1 := constantI S_ 1 1#1
  let main_v3 : IVec S_ 1 := (fun x v => Host.reduce IntOp.andi x v reducesTo_S64x1024x768_S_d0_1_2 h_S_) main_v2 main_c
  main_v3
-- ==== Kernel.lean ====
abbrev S64x1024x768 : Shape := ⟨3, ![64, 1024, 768]⟩
abbrev S64x512x1536 : Shape := ⟨3, ![64, 512, 1536]⟩
abbrev S1x1024x768 : Shape := ⟨3, ![1, 1024, 768]⟩
abbrev S1x512x1536 : Shape := ⟨3, ![1, 512, 1536]⟩
abbrev S1024x768 : Shape := ⟨2, ![1024, 768]⟩
abbrev S32x32x768 : Shape := ⟨3, ![32, 32, 768]⟩
abbrev S32x32x16x48 : Shape := ⟨4, ![32, 32, 16, 48]⟩
abbrev S32x16x32x48 : Shape := ⟨4, ![32, 16, 32, 48]⟩
abbrev S512x32x48 : Shape := ⟨3, ![512, 32, 48]⟩
abbrev S512x1536 : Shape := ⟨2, ![512, 1536]⟩
abbrev S64x512x512x3 : Shape := ⟨4, ![64, 512, 512, 3]⟩

abbrev nBuf : Space → Nat
  | .hbm => 3
  | .vmem => 4
  | .smem => 0
  | _ => 0

abbrev bufTy : (tb : Table) → Fin (tcTables nBuf tb) → BufTy
  | .hbm, ⟨0, _⟩ => ⟨S64x1024x768, .f32⟩
  | .hbm, ⟨1, _⟩ => ⟨S64x512x1536, .f32⟩
  | .hbm, ⟨2, _⟩ => ⟨S64x512x512x3, .f32⟩
  | .local _ .vmem, ⟨0, _⟩ => ⟨S1x1024x768, .f32⟩
  | .local _ .vmem, ⟨1, _⟩ => ⟨S1x1024x768, .f32⟩
  | .local _ .vmem, ⟨2, _⟩ => ⟨S1x512x1536, .f32⟩
  | .local _ .vmem, ⟨3, _⟩ => ⟨S1x512x1536, .f32⟩
  | _, _ => ⟨S64x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  shapeCasts_S1024x768_S32x32x768 : S1024x768.ShapeCasts S32x32x768
  shapeCasts_S32x32x768_S32x32x16x48 : S32x32x768.ShapeCasts S32x32x16x48
  transposes_S32x32x16x48_p0_2_1_3_S32x16x32x48 : S32x32x16x48.Transposes [0, 2, 1, 3] S32x16x32x48
  shapeCasts_S32x16x32x48_S512x32x48 : S32x16x32x48.ShapeCasts S512x32x48
  shapeCasts_S512x32x48_S512x1536 : S512x32x48.ShapeCasts S512x1536
  inb_S1x512x1536_S1x512x1536_0_0_0 : ∀ a, (![0, 0, 0] : Fin 3 → Nat) a + S1x512x1536.size a ≤ S1x512x1536.size a
  h_S1x512x1536 : 0 < S1x512x1536.numel
  shapeCasts_S1x512x1536_S512x1536 : S1x512x1536.ShapeCasts S512x1536
  shapeCasts_S512x1536_S1x512x1536 : S512x1536.ShapeCasts S1x512x1536
  shapeCasts_S64x512x1536_S64x512x512x3 : S64x512x1536.ShapeCasts S64x512x512x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S64x1024x768.size a
  hwx0_0 : ∀ i : grid0.Coords, EltTy.bits .f32 = 32 ∨ (Rect.block (s := S64x1024x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1536.size a ≤ S64x512x1536.size a
  hwx0_1 : ∀ i : grid0.Coords, EltTy.bits .f32 = 32 ∨ (Rect.block (s := S64x512x1536) S1x512x1536.size (cc0_transform_1 i) (hinb0_1 i)).WholeWords (EltTy.packing .f32)

variable [Facts₀]

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x512x1536.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x1024x768 : Shape := ⟨3, ![64, 1024, 768]⟩
abbrev S64x32x32x16x16x3 : Shape := ⟨6, ![64, 32, 32, 16, 16, 3]⟩
abbrev S64x32x16x32x16x3 : Shape := ⟨6, ![64, 32, 16, 32, 16, 3]⟩
abbrev S64x512x512x3 : Shape := ⟨4, ![64, 512, 512, 3]⟩

abbrev nBuf : Space → Nat
  | .hbm => 4
  | .vmem => 0
  | .smem => 0
  | _ => 0

abbrev bufTy : (tb : Table) → Fin (tcTables nBuf tb) → BufTy
  | .hbm, ⟨0, _⟩ => ⟨S64x1024x768, .f32⟩
  | .hbm, ⟨1, _⟩ => ⟨S64x32x32x16x16x3, .f32⟩
  | .hbm, ⟨2, _⟩ => ⟨S64x32x16x32x16x3, .f32⟩
  | .hbm, ⟨3, _⟩ => ⟨S64x512x512x3, .f32⟩
  | _, _ => ⟨S64x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]

class Facts₀ : Prop where
  shapeCasts_S64x1024x768_S64x32x32x16x16x3 : S64x1024x768.ShapeCasts S64x32x32x16x16x3
  transposes_S64x32x32x16x16x3_S64x32x16x32x16x3_0_1_3_2_4_5 : S64x32x32x16x16x3.Transposes [0, 1, 3, 2, 4, 5] S64x32x16x32x16x3
  shapeCasts_S64x32x16x32x16x3_S64x512x512x3 : S64x32x16x32x16x3.ShapeCasts S64x512x512x3

variable [Facts₀]

class Facts : Prop extends Facts₀ where

variable [Facts]
-- ==== Proof.PatchLayout.lean ====
/-
  Patches to image, as arithmetic on positions.

  An image of 512 × 512 pixels with 3 channels is cut into a 32 × 32 grid of patches of 16 × 16 pixels. Patch (r, c) is
  row r·32 + c of a [1024, 768] matrix; inside the row, pixel (i, j) of the patch with channel ch sits at entry
  i·48 + j·3 + ch. Putting the patches back means: image pixel (h, w), channel ch, is entry
  (h mod 16)·48 + (w mod 16)·3 + ch of patch row (h div 16)·32 + w div 16.

  It is convenient to merge a pixel's column and channel into one coordinate q = w·3 + ch below 1536 (an image row is
  then 1536 numbers). In that coordinate the patch column is q div 48 and the entry inside the patch line is q mod 48,
  because 48 = 16·3 (w = 16·a + j gives q = 48·a + (3·j + ch) with 3·j + ch below 48); the proofs below leave this
  arithmetic of quotients and remainders to linear arithmetic over the naturals.

  Three facts are proved here, for arrays of any element type:
  * `rows_split`: the image with merged columns, reshaped to [64, 512, 512, 3], is the image;
  * `block_relayout`: one batch member's [1, 1024, 768] block taken through
    reshape → (r c)(i k) → (r i)(c k) → reshape is that member's image with merged columns;
  * `split_swap_merge`: the whole array reshaped to [64, 32, 32, 16, 16, 3], with the patch-column and pixel-row axes
    swapped, reshaped to [64, 512, 512, 3], is the image.
  Every reshape keeps the row-major position, so each step is one equation between two row-major positions.
-/
import Idealize.ShloMosaic.Lib.Pipeline.Value
import Idealize.ShloMosaic.Lib.ValueIdx
import Idealize.ShloMosaic.Lib.ValueIdxRank6

namespace Cert.PatchLayout

open Idealize.ShloMosaic Idealize.ShloMosaic.ValueIdx

/-! ## Shapes -/

/-- The patches: batch, patch number, entry inside the patch. -/
abbrev SPatches : Shape := ⟨3, ![64, 1024, 768]⟩
/-- The image with column and channel merged: batch, row, merged column. -/
abbrev SRows : Shape := ⟨3, ![64, 512, 1536]⟩
/-- The image: batch, row, column, channel. -/
abbrev SImage : Shape := ⟨4, ![64, 512, 512, 3]⟩

/-- One batch member's patches, and the same without the unit axis. -/
abbrev SMember : Shape := ⟨3, ![1, 1024, 768]⟩
abbrev SMatrix : Shape := ⟨2, ![1024, 768]⟩
/-- Patch row, patch column, entry. -/
abbrev SGrid : Shape := ⟨3, ![32, 32, 768]⟩
/-- Patch row, patch column, pixel row, entry inside the pixel row. -/
abbrev SGridLines : Shape := ⟨4, ![32, 32, 16, 48]⟩
/-- Patch row, pixel row, patch column, entry inside the pixel row. -/
abbrev SRowLines : Shape := ⟨4, ![32, 16, 32, 48]⟩
/-- Image row, patch column, entry inside the pixel row. -/
abbrev SLines : Shape := ⟨3, ![512, 32, 48]⟩
/-- Image row, merged column; and the same under a unit axis. -/
abbrev SPlane : Shape := ⟨2, ![512, 1536]⟩
abbrev SMemberRows : Shape := ⟨3, ![1, 512, 1536]⟩

/-- Batch, patch row, patch column, pixel row, pixel column, channel. -/
abbrev SSplit : Shape := ⟨6, ![64, 32, 32, 16, 16, 3]⟩
/-- Batch, patch row, pixel row, patch column, pixel column, channel. -/
abbrev SSwapped : Shape := ⟨6, ![64, 32, 16, 32, 16, 3]⟩

/-! ## Where an image position comes from -/

/-- The patch that image row `h`, merged column `q` lies in. -/
def srcPatch (h : Fin 512) (q : Fin 1536) : Fin 1024 :=
  ⟨h.val / 16 * 32 + q.val / 48, by have := h.isLt; have := q.isLt; omega⟩

/-- Its entry inside that patch. -/
def srcEntry (h : Fin 512) (q : Fin 1536) : Fin 768 :=
  ⟨h.val % 16 * 48 + q.val % 48, by have := h.isLt; have := q.isLt; omega⟩

/-- Column `w` and channel `ch` as one merged column. -/
def merged (w : Fin 512) (ch : Fin 3) : Fin 1536 :=
  ⟨w.val * 3 + ch.val, by have := w.isLt; have := ch.isLt; omega⟩

variable {α : Type}

/-- The image with merged columns that the patches `x` make. -/
def rows (x : SPatches.Idx → α) : SRows.Idx → α :=
  fun i => x (ix3 (i 0) (srcPatch (i 1) (i 2)) (srcEntry (i 1) (i 2)))

/-- The image that the patches `x` make. -/
def image (x : SPatches.Idx → α) : SImage.Idx → α :=
  fun i => x (ix3 (i 0) (srcPatch (i 1) (merged (i 2) (i 3))) (srcEntry (i 1) (merged (i 2) (i 3))))

/-! ## Splitting the merged column -/

/-- The image with merged columns, its last axis split into column and channel, is the image: position
    (b, h, w·3 + ch) and position (b, h, w, ch) are the same row-major position. -/
theorem rows_split (x : SPatches.Idx → α) (hc : SRows.ShapeCasts SImage) :
    shapeCast SImage (rows x) hc = image x := by
  funext i
  obtain ⟨b, h, w, ch, rfl⟩ : ∃ (b : Fin 64) (h : Fin 512) (w : Fin 512) (ch : Fin 3), i = ix4 b h w ch :=
    ⟨i 0, i 1, i 2, i 3, eq_ix4 i⟩
  refine (shapeCast_apply (rows x) hc (ix4 b h w ch) (ix3 b h (merged w ch)) ?_).trans rfl
  rw [Shape.rowMajor_val_three, Shape.rowMajor_val_four]
  show (b.val * 512 + h.val) * 1536 + (w.val * 3 + ch.val) = ((b.val * 512 + h.val) * 512 + w.val) * 3 + ch.val
  omega

/-! ## One batch member: (r c)(i k) → (r i)(c k) -/

/-- One member's block of patches, flattened to the [1024, 768] matrix, split into patch row, patch column, pixel row
    and the 48 entries of a pixel row, with patch column and pixel row swapped, and merged back to [512, 1536]:
    row `h`, merged column `q` of the result is entry (h mod 16)·48 + q mod 48 of patch (h div 16)·32 + q div 48. -/
theorem block_relayout (x : SMember.Idx → α)
    (h1 : SMember.ShapeCasts SMatrix) (h2 : SMatrix.ShapeCasts SGrid) (h3 : SGrid.ShapeCasts SGridLines)
    (h4 : SGridLines.Transposes [0, 2, 1, 3] SRowLines) (h5 : SRowLines.ShapeCasts SLines)
    (h6 : SLines.ShapeCasts SPlane) (h7 : SPlane.ShapeCasts SMemberRows)
    (u : Fin 1) (h : Fin 512) (q : Fin 1536) :
    shapeCast SMemberRows (shapeCast SPlane (shapeCast SLines (transpose SRowLines [0, 2, 1, 3]
      (shapeCast SGridLines (shapeCast SGrid (shapeCast SMatrix x h1) h2) h3) h4) h5) h6) h7 (ix3 u h q)
      = x (ix3 (0 : Fin 1) (srcPatch h q) (srcEntry h q)) := by
  have hu := u.isLt
  have hh := h.isLt
  have hq := q.isLt
  -- the coordinates of the position: patch row, pixel row, patch column, entry inside the pixel row
  obtain ⟨r, hr⟩ : ∃ r : Fin 32, r.val = h.val / 16 := ⟨⟨h.val / 16, by omega⟩, rfl⟩
  obtain ⟨i, hi⟩ : ∃ i : Fin 16, i.val = h.val % 16 := ⟨⟨h.val % 16, by omega⟩, rfl⟩
  obtain ⟨c, hc⟩ : ∃ c : Fin 32, c.val = q.val / 48 := ⟨⟨q.val / 48, by omega⟩, rfl⟩
  obtain ⟨k, hk⟩ : ∃ k : Fin 48, k.val = q.val % 48 := ⟨⟨q.val % 48, by omega⟩, rfl⟩
  obtain ⟨e, he⟩ : ∃ e : Fin 768, e.val = i.val * 48 + k.val := ⟨⟨i.val * 48 + k.val, by have := i.isLt; have := k.isLt; omega⟩, rfl⟩
  obtain ⟨p, hp⟩ : ∃ p : Fin 1024, p.val = r.val * 32 + c.val := ⟨⟨r.val * 32 + c.val, by have := r.isLt; have := c.isLt; omega⟩, rfl⟩
  -- drop the unit axis
  refine (shapeCast_apply _ h7 (ix3 u h q) (ix2 h q) ?_).trans ?_
  · rw [Shape.rowMajor_val_two, Shape.rowMajor_val_three]
    show h.val * 1536 + q.val = (u.val * 512 + h.val) * 1536 + q.val
    omega
  -- the merged column is patch column and entry inside the pixel row
  refine (shapeCast_apply _ h6 (ix2 h q) (ix3 h c k) ?_).trans ?_
  · rw [Shape.rowMajor_val_three, Shape.rowMajor_val_two]
    show (h.val * 32 + c.val) * 48 + k.val = h.val * 1536 + q.val
    omega
  -- the image row is patch row and pixel row
  refine (shapeCast_apply _ h5 (ix3 h c k) (ix4 r i c k) ?_).trans ?_
  · rw [Shape.rowMajor_val_four, Shape.rowMajor_val_three]
    show ((r.val * 16 + i.val) * 32 + c.val) * 48 + k.val = (h.val * 32 + c.val) * 48 + k.val
    omega
  -- patch column and pixel row change places
  refine (transpose_apply [0, 2, 1, 3] _ h4 (ix4 r i c k) (ix4 r c i k) (fun b => match b with
    | ⟨0, _⟩ => rfl
    | ⟨1, _⟩ => rfl
    | ⟨2, _⟩ => rfl
    | ⟨3, _⟩ => rfl)).trans ?_
  -- pixel row and the entry inside it are the entry inside the patch
  refine (shapeCast_apply _ h3 (ix4 r c i k) (ix3 r c e) ?_).trans ?_
  · rw [Shape.rowMajor_val_three, Shape.rowMajor_val_four]
    show (r.val * 32 + c.val) * 768 + e.val = ((r.val * 32 + c.val) * 16 + i.val) * 48 + k.val
    omega
  -- patch row and patch column are the patch number
  refine (shapeCast_apply _ h2 (ix3 r c e) (ix2 p e) ?_).trans ?_
  · rw [Shape.rowMajor_val_two, Shape.rowMajor_val_three]
    show p.val * 768 + e.val = (r.val * 32 + c.val) * 768 + e.val
    omega
  -- the unit axis back
  refine (shapeCast_apply _ h1 (ix2 p e) (ix3 (0 : Fin 1) (srcPatch h q) (srcEntry h q)) ?_).trans rfl
  rw [Shape.rowMajor_val_three, Shape.rowMajor_val_two]
  show (0 * 1024 + (h.val / 16 * 32 + q.val / 48)) * 768 + (h.val % 16 * 48 + q.val % 48) = p.val * 768 + e.val
  omega

/-! ## The whole array: split, swap, merge -/

/-- The patches reshaped to batch, patch row, patch column, pixel row, pixel column, channel; patch column and pixel
    row swapped; reshaped to batch, row, column, channel: the image. Row h is patch row h div 16, pixel row h mod 16;
    column w is patch column w div 16, pixel column w mod 16. -/
theorem split_swap_merge (x : SPatches.Idx → α) (h1 : SPatches.ShapeCasts SSplit)
    (h2 : SSplit.Transposes [0, 1, 3, 2, 4, 5] SSwapped) (h3 : SSwapped.ShapeCasts SImage) :
    shapeCast SImage (transpose SSwapped [0, 1, 3, 2, 4, 5] (shapeCast SSplit x h1) h2) h3 = image x := by
  funext i
  obtain ⟨b, h, w, ch, rfl⟩ : ∃ (b : Fin 64) (h : Fin 512) (w : Fin 512) (ch : Fin 3), i = ix4 b h w ch :=
    ⟨i 0, i 1, i 2, i 3, eq_ix4 i⟩
  have hb := b.isLt
  have hh := h.isLt
  have hw := w.isLt
  have hch := ch.isLt
  obtain ⟨r, hr⟩ : ∃ r : Fin 32, r.val = h.val / 16 := ⟨⟨h.val / 16, by omega⟩, rfl⟩
  obtain ⟨pi, hpi⟩ : ∃ pi : Fin 16, pi.val = h.val % 16 := ⟨⟨h.val % 16, by omega⟩, rfl⟩
  obtain ⟨c, hc⟩ : ∃ c : Fin 32, c.val = w.val / 16 := ⟨⟨w.val / 16, by omega⟩, rfl⟩
  obtain ⟨pj, hpj⟩ : ∃ pj : Fin 16, pj.val = w.val % 16 := ⟨⟨w.val % 16, by omega⟩, rfl⟩
  -- row and column split into patch and pixel coordinates
  refine (shapeCast_apply _ h3 (ix4 b h w ch) (ix6 b r pi c pj ch) ?_).trans ?_
  · rw [Shape.rowMajor_val_six, Shape.rowMajor_val_four]
    show ((((b.val * 32 + r.val) * 16 + pi.val) * 32 + c.val) * 16 + pj.val) * 3 + ch.val
      = ((b.val * 512 + h.val) * 512 + w.val) * 3 + ch.val
    omega
  -- patch column and pixel row change places
  refine (transpose_apply [0, 1, 3, 2, 4, 5] _ h2 (ix6 b r pi c pj ch) (ix6 b r c pi pj ch) (fun a => match a with
    | ⟨0, _⟩ => rfl
    | ⟨1, _⟩ => rfl
    | ⟨2, _⟩ => rfl
    | ⟨3, _⟩ => rfl
    | ⟨4, _⟩ => rfl
    | ⟨5, _⟩ => rfl)).trans ?_
  -- patch coordinates are the patch number; pixel coordinates and channel are the entry
  refine (shapeCast_apply x h1 (ix6 b r c pi pj ch)
    (ix3 b (srcPatch h (merged w ch)) (srcEntry h (merged w ch))) ?_).trans rfl
  rw [Shape.rowMajor_val_three, Shape.rowMajor_val_six]
  show (b.val * 1024 + (h.val / 16 * 32 + (w.val * 3 + ch.val) / 48)) * 768
      + (h.val % 16 * 48 + (w.val * 3 + ch.val) % 48)
    = ((((b.val * 32 + r.val) * 32 + c.val) * 16 + pi.val) * 16 + pj.val) * 3 + ch.val
  omega

end Cert.PatchLayout
-- ==== Proof.KernelRows.lean ====
/-
  The kernel's array: every batch member's patches put back into an image with merged columns.

  The grid has one point per batch member. Point t loads member t's [1, 1024, 768] block of patches, takes it through
  reshape → swap of patch column and pixel row → reshape, and stores the [1, 512, 1536] result as block t of the output
  array. So block t of the output is member t's image with merged columns (`PatchLayout.block_relayout`), the 64 blocks
  cover the output array, and the array after the run is `PatchLayout.rows` of the argument.
-/
import proofs.«120735_j82222853915002_2_alg».proof.Proof.Gen.KernelIdeal.Frame
import proofs.«120735_j82222853915002_2_alg».proof.Proof.PatchLayout
import Idealize.ShloMosaic.Lib.Pipeline.Value

noncomputable section

open Idealize.ShloMosaic Idealize.ShloMosaic.TcCoe Idealize.SL.Sem
open Idealize.ShloMosaic.Pipeline (Dat)
open Idealize.ShloMosaic.ValueIdx

namespace Cert.KernelIdeal.Rows

open Cert.KernelIdeal Cert.KernelIdeal.Gen Cert.PatchLayout

variable {F : FTy → Type} [FloatOps F]
variable (m : (ℓ : Loc nD τ sig) → Buf (Elt F) ℓ) (ρ : Dev nD → PrngReg)

theorem hz : (![0, 0, 0] : Fin 3 → Nat) = fun _ => 0 := funext fun a => by fin_cases a <;> rfl

/-! ## What one point stores -/

/-- The stored block, read at a position: row `j 1`, merged column `j 2` of the result is the loaded block at the
    patch and entry that position comes from. -/
theorem stored_apply (x0 : Vec F S1x1024x768 .f32) (j : S1x512x1536.Idx) :
    k0_pay1 x0 j = x0 (ix3 (0 : Fin 1) (srcPatch (j 1) (j 2)) (srcEntry (j 1) (j 2))) := by
  obtain ⟨u, h, q, rfl⟩ : ∃ (u : Fin 1) (h : Fin 512) (q : Fin 1536), j = ix3 u h q := ⟨j 0, j 1, j 2, eq_ix3 j⟩
  unfold k0_pay1
  exact block_relayout x0 _ _ _ _ _ _ _ u h q

/-! ## The blocks' places in the arrays -/

/-- Both windows move along the batch axis with the grid point and stay at the origin of the other two axes. -/
theorem idx_facts : ∀ t : Fin cfg0.N, win0_0.index t (0 : Fin 3) = t.val ∧ win0_0.index t (1 : Fin 3) = 0
    ∧ win0_0.index t (2 : Fin 3) = 0 ∧ win0_1.index t (0 : Fin 3) = t.val ∧ win0_1.index t (1 : Fin 3) = 0
    ∧ win0_1.index t (2 : Fin 3) = 0 :=
  (by decide +kernel : ∀ t : Fin grid0.N, _)

/-- A grid point as a batch number. -/
def member (t : Fin cfg0.N) : Fin 64 := ⟨t.val, by have := t.isLt; have hN : cfg0.N = 64 := N_0; omega⟩

/-- Position (u, p, e) of point `t`'s input block is position (t, p, e) of the patches. -/
theorem emb_in (t : Fin cfg0.N) (y : S1x1024x768.Idx) :
    ((cfg0.win 0).blk t).view.emb y = ix3 (member t) (y 1) (y 2) := by
  obtain ⟨e0, e1, e2, -, -, -⟩ := idx_facts t
  funext a; apply Fin.ext
  match a with
  | ⟨0, _⟩ => show win0_0.index t (0 : Fin 3) * 1 + 1 * (y 0).val = t.val; have hy : (y 0).val < 1 := (y 0).isLt; omega
  | ⟨1, _⟩ => show win0_0.index t (1 : Fin 3) * 1024 + 1 * (y 1).val = (y 1).val; omega
  | ⟨2, _⟩ => show win0_0.index t (2 : Fin 3) * 768 + 1 * (y 2).val = (y 2).val; omega

/-- Position (u, h, q) of point `t`'s output block is position (t, h, q) of the output array. -/
theorem emb_out (t : Fin cfg0.N) (j : S1x512x1536.Idx) :
    ((cfg0.win 1).blk t).view.emb j = ix3 (member t) (j 1) (j 2) := by
  obtain ⟨-, -, -, e0, e1, e2⟩ := idx_facts t
  funext a; apply Fin.ext
  match a with
  | ⟨0, _⟩ => show win0_1.index t (0 : Fin 3) * 1 + 1 * (j 0).val = t.val; have hj : (j 0).val < 1 := (j 0).isLt; omega
  | ⟨1, _⟩ => show win0_1.index t (1 : Fin 3) * 512 + 1 * (j 1).val = (j 1).val; omega
  | ⟨2, _⟩ => show win0_1.index t (2 : Fin 3) * 1536 + 1 * (j 2).val = (j 2).val; omega

/-- The input block at point `t`, read at a position, is the argument array at that position of member `t`. -/
theorem iblk_apply (c : Dev nD) (t : Fin cfg0.N) (y : S1x1024x768.Idx) :
    (iblk m c 0 t : Vec F S1x1024x768 .f32) y = (V m c main_arg0 : S64x1024x768.Idx → Elt F .f32) (ix3 (member t) (y 1) (y 2)) := by
  unfold iblk
  rw [View.read_apply]
  show V m c main_arg0 (((cfg0.win 0).blk t).view.emb y) = _
  rw [emb_in]
  rfl

/-! ## What point `t` writes back -/

/-- Block `t` written back is block `t` of the argument's image with merged columns. -/
theorem flushed_eq (c : Dev nD) (t : Fin cfg0.N) :
    (dats m 0 c).flushed 1 t = ((cfg0.win 1).blk t).view.read (Elt F) (rows (V m c main_arg0 : S64x1024x768.Idx → Elt F .f32)) := by
  show (cfg0.win 1).cut (grid0.coords t) ((dats m 0 c).after 1 t) = _
  rw [after0_1]
  unfold out0_1
  rw [View.canon_unit_zero hz]
  simp only [View.ld_unit_zero (S := S1x1024x768) hz]
  funext j
  show k0_pay1 (iblk m c 0 t) j = rows (V m c main_arg0 : S64x1024x768.Idx → Elt F .f32) (((cfg0.win 1).blk t).view.emb j)
  rw [stored_apply, iblk_apply, emb_out]
  rfl

end Cert.KernelIdeal.Rows

end
-- ==== Proof.KernelImage.lean ====
/-
  The kernel's result: the image.

  The 64 blocks written back cover the output array, one batch member each, so after the region the output array is the
  argument's image with merged columns. The one host operation after the region splits the merged column into column
  and channel, which gives the image (`PatchLayout.rows_split`).
-/
import proofs.«120735_j82222853915002_2_alg».proof.Proof.KernelRows
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.Rows

open Cert.KernelIdeal Cert.KernelIdeal.Gen Cert.PatchLayout

variable {F : FTy → Type} [FloatOps F]
variable (m : (ℓ : Loc nD τ sig) → Buf (Elt F) ℓ) (ρ : Dev nD → PrngReg)

/-! ## The blocks cover the output array -/

/-- A position of the output array lies in point `t`'s block iff each coordinate lies in the block's range. -/
theorem mem_blk (t : Fin cfg0.N) (i : S64x512x1536.Idx) :
    i ∈ ((cfg0.win 1).blk t).view.set ↔ ∀ a : Fin 3, win0_1.index t a * S1x512x1536.size a ≤ (i a).val
      ∧ (i a).val < win0_1.index t a * S1x512x1536.size a + S1x512x1536.size a := by
  show i ∈ ((View.whole main_v0).slice (win0_1.rect t)).set ↔ _
  rw [View.set_slice_whole, Rect.mem_set_unit]
  exact Iff.rfl

/-- Position (b, h, q) lies in the block of the point that handles batch member b. -/
theorem cover (i : S64x512x1536.Idx) :
    ∃ t : Fin cfg0.N, (cfg0.win 1).flush t = true ∧ i ∈ ((cfg0.win 1).blk t).view.set := by
  have hN : cfg0.N = 64 := N_0
  have hi0 : (i 0).val < 64 := (i 0).isLt
  have hi1 : (i 1).val < 512 := (i 1).isLt
  have hi2 : (i 2).val < 1536 := (i 2).isLt
  obtain ⟨t, ht⟩ : ∃ t : Fin cfg0.N, t.val = (i 0).val := ⟨⟨(i 0).val, by omega⟩, rfl⟩
  obtain ⟨-, -, -, e0, e1, e2⟩ := idx_facts t
  refine ⟨t, flush0_1 t, ?_⟩
  rw [mem_blk]
  intro a
  match a with
  | ⟨0, _⟩ =>
    show win0_1.index t (0 : Fin 3) * 1 ≤ (i 0).val ∧ (i 0).val < win0_1.index t (0 : Fin 3) * 1 + 1
    omega
  | ⟨1, _⟩ =>
    show win0_1.index t (1 : Fin 3) * 512 ≤ (i 1).val ∧ (i 1).val < win0_1.index t (1 : Fin 3) * 512 + 512
    omega
  | ⟨2, _⟩ =>
    show win0_1.index t (2 : Fin 3) * 1536 ≤ (i 2).val ∧ (i 2).val < win0_1.index t (2 : Fin 3) * 1536 + 1536
    omega

/-- The output array after the region: the argument's image with merged columns. -/
theorem final (c : Dev nD) :
    (dats m 0 c).arrAt 1 cfg0.N = rows (V m c main_arg0 : S64x1024x768.Idx → Elt F .f32) :=
  (dats m 0 c).arrAt_eq_of_cover 1 _ (fun t _ => flushed_eq m c t) cover

/-! ## The host operation after the region -/

/-- What the host operation after the region leaves in the result buffer: the output array with its merged column
    split into column and channel. -/
theorem tail_eq (c : Dev nD) : Pipeline.afterTail₀ cfgs (dats m) 0 (V0 m) [hostOps1] c main_v1
    = shapeCast S64x512x512x3 ((dats m 0 c).arrAt 1 cfg0.N) shapeCasts_S64x512x1536_S64x512x512x3 := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = (dats m 0 c).arrAt 1 cfg0.N := Pipeline.withArrays_arr spec0 launch0.win.arr_inj c _ _ 1
  funext i
  show shapeCast S64x512x512x3 (Pipeline.withArrays (cfgs 0).spec c (V0 m c) (fun w => (dats m 0 c).arrAt w (cfgs 0).N)
    (Proc.devRef .tc main_v0)) shapeCasts_S64x512x1536_S64x512x512x3 i = _
  rw [e]

/-! ## The run, read -/

/-- The result buffer is no array of the region and is not scoped: the frame run states what the host operation after
    the region leaves in it. -/
theorem result_mem : main_v1 ∈ Pipeline.restRefs sig (cfgs 0).spec :=
  Pipeline.mem_restRefs_of main_v1 rfl (by decide)

/-- Every weakly fair execution of the program ends with the result at the image of the argument, the argument unchanged. -/
theorem run : θ_run defs (onTc (τ := τ) (main (F := F))) ⟨m, fun _ => 0, ρ⟩ fun r => ∀ c : Dev nD,
      r.2.mem ((c : Thread nD τ).loc main_v1) = image (m ((c : Thread nD τ).loc main_arg0) : S64x1024x768.Idx → Elt F .f32)
      ∧ r.2.mem ((c : Thread nD τ).loc main_arg0) = m ((c : Thread nD τ).loc main_arg0) :=
  (θ_run defs _ _).mono (fun r h c =>
      ⟨((h c).2 main_v1 result_mem).trans ((tail_eq m c).trans (by
          rw [final m c]
          exact rows_split _ _)),
        ((h c).1 0).trans (((dats m 0 c).arrAt_in 0 rfl _).trans ((A_eq m c 0).trans (V_main_arg0 m c)))⟩)
    (run_main m ρ)

end Cert.KernelIdeal.Rows

end
-- ==== Proof.ReferenceImage.lean ====
/-
  The reference's result: the image.

  The reference reshapes the patches to batch, patch row, patch column, pixel row, pixel column, channel, swaps patch
  column and pixel row, and reshapes to batch, row, column, channel. That is the image (`PatchLayout.split_swap_merge`).
-/
import proofs.«120735_j82222853915002_2_alg».proof.Proof.Gen.ReferenceIdeal.Run
import proofs.«120735_j82222853915002_2_alg».proof.Proof.PatchLayout

noncomputable section

open Idealize.ShloMosaic Idealize.ShloMosaic.TcCoe Idealize.SL.Sem

namespace Cert.ReferenceIdeal.Image

open Cert.ReferenceIdeal Cert.PatchLayout

variable {F : FTy → Type} [FloatOps F]
variable (m : (ℓ : Loc nD τ sig) → Buf (Elt F) ℓ) (ρ : Dev nD → PrngReg)

/-- Every weakly fair execution of the reference ends with the result at the image of the argument, the argument
    unchanged. -/
theorem run : θ_run defs (onTc (τ := τ) (main (F := F))) ⟨m, fun _ => 0, ρ⟩ fun r => ∀ c : Dev nD,
      r.2.mem ((c : Thread nD τ).loc main_v2) = image (m ((c : Thread nD τ).loc main_arg0) : S64x1024x768.Idx → Elt F .f32)
      ∧ r.2.mem ((c : Thread nD τ).loc main_arg0) = m ((c : Thread nD τ).loc main_arg0) :=
  (θ_run defs _ _).mono (fun _ h c => ⟨(h c).1.trans (split_swap_merge _ _ _ _), (h c).2⟩)
    (Cert.ReferenceIdeal.Value.run (F := F) m ρ)

end Cert.ReferenceIdeal.Image

end
-- ==== Proof.lean ====
/-
  Patches to image: the kernel and the reference compute the same permutation of the input.

  The input is 64 batch members of 1024 patches of 768 numbers: a 32 × 32 grid of patches of 16 × 16 pixels with 3
  channels, patch (r, c) at row r·32 + c, its pixel (i, j), channel ch at entry i·48 + j·3 + ch. The result is the
  [64, 512, 512, 3] image: pixel (h, w), channel ch of a member is entry (h mod 16)·48 + (w mod 16)·3 + ch of its patch
  (h div 16)·32 + w div 16 (`PatchLayout.image`).

  The kernel works one batch member per grid point, on an image whose column and channel are merged into one
  coordinate w·3 + ch: it reshapes the member's [1024, 768] block to (r, c, i, k) with k the 48 numbers of a pixel row
  of a patch, swaps c and i, and reshapes to [512, 1536]; a host reshape then splits the merged coordinate. The
  reference reshapes the whole array to (b, r, c, i, j, ch), swaps c and i, and reshapes to the image. Both are
  the same function of the argument, position by position, whatever the numbers are: nothing is computed, so no
  property of the extended reals and no finiteness of the input is used.

  `PatchLayout` holds the arithmetic of positions; `KernelRows` and `KernelImage` read the kernel's run (blocks, their
  cover of the output array, the host reshape after the region); `ReferenceImage` reads the reference's run.
-/
import proofs.«120735_j82222853915002_2_alg».proof.Defs
import proofs.«120735_j82222853915002_2_alg».proof.Proof.Gen.Kernel
import proofs.«120735_j82222853915002_2_alg».proof.Proof.Gen.Kernel.Frame
import proofs.«120735_j82222853915002_2_alg».proof.Proof.Gen.KernelIdeal
import proofs.«120735_j82222853915002_2_alg».proof.Proof.Gen.KernelIdeal.Frame
import proofs.«120735_j82222853915002_2_alg».proof.Proof.Gen.ReferenceIdeal
import proofs.«120735_j82222853915002_2_alg».proof.Proof.Gen.ReferenceIdeal.Run
import proofs.«120735_j82222853915002_2_alg».proof.Proof.Gen.Pre_finite_inputs
import proofs.«120735_j82222853915002_2_alg».proof.Proof.KernelImage
import proofs.«120735_j82222853915002_2_alg».proof.Proof.ReferenceImage

noncomputable section

namespace Cert.Proof

open Idealize.ShloMosaic Idealize.SL.Sem

/-- The kernel as printed runs, and leaves its argument as it was. -/
theorem frame_kernel : @Cert.frame_Kernel Cert.Kernel.Gen.facts Cert.Pre_finite_inputs.Gen.facts :=
  fun m ρ _ => Cert.Kernel.Gen.frame m ρ

/-- So does the kernel read over the extended reals. -/
theorem frame_kernel_ideal : @Cert.frame_KernelIdeal Cert.KernelIdeal.Gen.facts Cert.Pre_finite_inputs.Gen.facts :=
  fun m ρ _ => Cert.KernelIdeal.Gen.frame m ρ

/-- The reference runs and leaves its argument as it was: its run, with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Value.run (F := Ideal) m ρ)

/-- Both programs end with the image of the argument; the arguments agree, so the results are equal. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, Cert.KernelIdeal.Rows.run (F := Ideal) m ρ, ?_⟩
  refine (θ_run Cert.ReferenceIdeal.defs _ _).mono (fun _ h c => ⟨(h c).1.trans ?_, (h c).2⟩)
    (Cert.ReferenceIdeal.Image.run (F := Ideal) m' ρ')
  rw [hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
